-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S128 .f32) (main_arg5 : FVec F S1600000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x256 .f32) (main_arg1 : FVec F S256x128 .f32) (main_arg2 : FVec F S128 .f32) (main_arg3 : FVec F S128x128 .f32) (main_arg4 : FVec F S128 .f32) (main_arg5 : FVec F S1600000 .f32) (main_arg6 : IVec S1600000 32) (main_arg7 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 44
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S1x128, .f32⟩
  | .hbm, ⟨9, _⟩ => ⟨S100000x128, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S100000x128 : Shape := ⟨2, ![100000, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is five segments: the reshape of the first bias, the first pallas_call, the first sparse aggregation with the
  reshape of the second bias, the second pallas_call, the second sparse aggregation.  The buffer contents at the five
  boundaries are a fold from the launch memory; after the last segment every unscoped buffer holds the last boundary's
  contents.  Read at the result buffer this names the program's result — the last boundary's contents there — and read
  at the eight argument buffers it says they end as launched, since no segment writes an argument.
-/
import proofs.«138256_j19937238188789_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v29 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Named

end
-- ==== Proof.Layer.lean ====
/-
  One dense layer of the network as a function of whole arrays over the extended reals.

  For an `M × K` array `x`, a `K × N` array `w` and a bias row `b` (a `1 × N` array), the layer's entry `(p, q)` is
  `Σ_k x[p, k] · w[k, q] + b[0, q]`.  The second layer of the network is the same function of the rectified
  activations, `max(h, 0)` entry by entry.  Both programs are compared against these two functions; the zero of the
  rectifier is kept as the value of the zero word, which is the same word on both sides.

  An entry depends on row `p` of `x`, on column `q` of `w` and on entry `q` of the bias row only (`affineAt_congr`): this
  is what lets a block of rows of the result be computed from the same block of rows of `x`.
-/
import Idealize.ShloMosaic.PureOps.Ideal
import Idealize.ShloMosaic.Lib.ValueIdx

noncomputable section

namespace Cert.Layer

open Idealize.ShloMosaic Idealize.ShloMosaic.ValueIdx
open scoped BigOperators

variable {M K N : Nat}

/-- Entry `(p, q)` of `x · w` plus the bias row. -/
def affineAt (x : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, x (ix2 p k) * w (ix2 k q)) + b (ix2 (0 : Fin 1) q)

/-- The layer's whole result array. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => affineAt x w b (i 0) (i 1)

theorem affine_apply (x : (⟨2, ![M, K]⟩ : Shape).Idx → EReal) (w : (⟨2, ![K, N]⟩ : Shape).Idx → EReal)
    (b : (⟨2, ![1, N]⟩ : Shape).Idx → EReal) (p : Fin M) (q : Fin N) :
    affine x w b (ix2 p q) = affineAt x w b p q := rfl

/-- An entry of the layer reads one row of `x`, one column of `w` and one entry of the bias row: two layers whose
    operands agree there have the same entry, whatever the row is called in each (`x'` may be a block of rows of `x`). -/
theorem affineAt_congr {M' : Nat} (x : (⟨2, ![M, K]⟩ : Shape).Idx → EReal) (x' : (⟨2, ![M', K]⟩ : Shape).Idx → EReal)
    (w w' : (⟨2, ![K, N]⟩ : Shape).Idx → EReal) (b b' : (⟨2, ![1, N]⟩ : Shape).Idx → EReal)
    (p : Fin M) (p' : Fin M') (q : Fin N)
    (hx : ∀ k : Fin K, x' (ix2 p' k) = x (ix2 p k)) (hw : ∀ k : Fin K, w' (ix2 k q) = w (ix2 k q))
    (hb : b' (ix2 (0 : Fin 1) q) = b (ix2 (0 : Fin 1) q)) :
    affineAt x' w' b' p' q = affineAt x w b p q := by
  unfold affineAt
  rw [hb]
  exact congrArg (· + b (ix2 (0 : Fin 1) q)) (Finset.sum_congr rfl fun k _ => by rw [hx k, hw k])

/-- A bias vector laid out as the one row of a `1 × N` array. -/
def biasRow (b : (⟨1, ![N]⟩ : Shape).Idx → EReal) : (⟨2, ![1, N]⟩ : Shape).Idx → EReal :=
  fun i => b (ix1 (i 1))

theorem biasRow_apply (b : (⟨1, ![N]⟩ : Shape).Idx → EReal) (u : Fin 1) (q : Fin N) :
    biasRow b (ix2 u q) = b (ix1 q) := rfl

/-- The rectifier, entry by entry: the larger of the entry and the value of the zero word. -/
def relu (h : (⟨2, ![M, N]⟩ : Shape).Idx → EReal) : (⟨2, ![M, N]⟩ : Shape).Idx → EReal :=
  fun i => max (h i) (Ideal.ofBits .f32 0x00000000#32)

theorem relu_apply (h : (⟨2, ![M, N]⟩ : Shape).Idx → EReal) (i : (⟨2, ![M, N]⟩ : Shape).Idx) :
    relu h i = max (h i) (Ideal.ofBits .f32 0x00000000#32) := rfl

end Cert.Layer

end
-- ==== Proof.Aggregate.lean ====
/-
  The sparse aggregation both programs apply after each dense layer, as one function.

  For activations `h` (100000 rows of 128), edge weights `vals` and edge endpoints `row`, `col` (1600000 edges),
  `aggregate h vals row col` scatters, for every edge `e`, the row `vals[e] · h[col[e]]` onto row `row[e]` of a zero
  array, adding: `out[i] = Σ_{e : row[e] = i} vals[e] · h[col[e]]` (a negative `col[e]` is first wrapped by adding the
  number of rows).  It is the host's gather, broadcast multiply and scatter-add, composed; the comparison of the two
  programs never opens it: both apply this same function, twice, and only what goes into it is compared.
-/
import proofs.«138256_j19937238188789_1_alg».proof.Proof.Gen.KernelIdeal

noncomputable section

namespace Cert.KernelIdeal.Aggregate

open Cert.KernelIdeal Idealize.ShloMosaic
open Cert.KernelIdeal.Facts₀

variable {F : FTy → Type} [FloatOps F]

/-- `out[i] = Σ_{e : row[e] = i} vals[e] · h[col[e]]`, in the host's operations. -/
def aggregate (h : (⟨S100000x128, .f32⟩ : BufTy).Contents (Elt F)) (vals : (⟨S1600000, .f32⟩ : BufTy).Contents (Elt F))
    (row col : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

end Cert.KernelIdeal.Aggregate

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.Region0.lean ====
/-
  The first pallas_call (the first dense layer), read as a value: whatever the arrays hold when the region is entered,
  its output array ends holding the layer `x · w + b` of its three operand arrays.

  The grid has 20 points.  Point `t` stages rows `5000·t … 5000·t + 4999` of `x` (all 256 columns), the whole of `w`
  and the whole bias row, and writes back rows `5000·t … 5000·t + 4999` of the result.  The body rounds both operands to
  bf16 (the identity on extended reals), multiplies them into a zero accumulator and adds the bias row broadcast over
  the rows, so entry `(p, q)` of the block it stores is `Σ_k x[5000·t + p, k] · w[k, q] + b[0, q]`: entry
  `(5000·t + p, q)` of the layer, because an entry of the layer reads one row of `x` only.  The 20 row blocks tile the
  100000 rows, so every entry of the output array is written, by point `row / 5000`.
-/
import proofs.«138256_j19937238188789_1_alg».proof.Proof.Gen.KernelIdeal.Frame
import proofs.«138256_j19937238188789_1_alg».proof.Proof.Layer
import proofs.«138256_j19937238188789_1_alg».proof.Proof.LibMatmulPlain
import Idealize.ShloMosaic.Lib.Pipeline.Value
import Idealize.ShloMosaic.Lib.ValueLayout

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The body's product is a plain `[M, K] × [K, N]` one. -/
theorem plain : MatmulPlain.IsPlain dot_S5000x256_S256x128_S5000x128_1_0_0_1_n_n := ⟨rfl, rfl, rfl, rfl, rfl, rfl⟩

/-- The stored value at `(p, q)`, from the three loaded blocks: the layer's entry of the blocks. -/
theorem stored_apply (x0 : FVec Ideal S5000x256 .f32) (x1 : FVec Ideal S256x128 .f32) (x2 : FVec Ideal S1x128 .f32)
    (p : Fin 5000) (q : Fin 128) :
    k0_pay1 (F := Ideal) x0 x1 x2 (ix2 p q) = Layer.affineAt x0 x1 x2 p q := by
  unfold k0_pay1
  show FloatOps.matmul (F := Ideal) dot_S5000x256_S256x128_S5000x128_1_0_0_1_n_n none (truncf (F := Ideal) .bf16 x0 bitsLt_bf16_f32) (truncf (F := Ideal) .bf16 x1 bitsLt_bf16_f32) (constant (F := Ideal) S5000x128 .f32 0x00000000#32) (ix2 p q)
      + broadcastTo S5000x128 (shapeCast S1x128 x2 shapeCasts_S1x128_S1x128) broadcasts_S1x128_S5000x128 (ix2 p q) = _
  rw [MatmulPlain.matmul_zero_apply plain, broadcastTo_1b_ab_apply, shapeCast_self]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 20 points: the rows of `x` and of the result move with the point, block `t` at point `t`;
    `w` and the bias row stay at block 0; no map moves along the columns. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` (rows `5000·t …`) of the layer of the arrays as the region finds them. -/
theorem flushed_eq (c : Dev nD) (t : Fin cfg0.N) :
    (dat0 V c).flushed 3 t = ((cfg0.win 3).blk t).view.read (Elt Ideal)
      (Layer.affine (M := 100000) (K := 256) (N := 128) (V c main_arg0) (V c main_arg1) (V c main_v0)) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x128) zero_offsets,
    View.ld_unit_zero (S := S1x128) zero_offsets]
  obtain ⟨e00, e01, e10, e11, e20, e21, e30, e31⟩ := index_facts t
  have ht : t.val < 20 := Nat.lt_of_lt_of_eq t.isLt (show cfg0.N = 20 from N_0)
  funext j
  obtain ⟨p, q, rfl⟩ : ∃ (p : Fin 5000) (q : Fin 128), j = ix2 p q := ⟨j 0, j 1, eq_ix2 j⟩
  have hp : p.val < 5000 := p.isLt
  have hemb : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = Layer.affine (M := 100000) (K := 256) (N := 128) (V c main_arg0) (V c main_arg1) (V c main_v0)
        (((cfg0.win 3).blk t).view.emb (ix2 p q))
  rw [hemb, Layer.affine_apply]
  refine (stored_apply _ _ _ p q).trans ?_
  refine Layer.affineAt_congr (V c main_arg0) (iblk0 V c 0 t) (V c main_arg1) (iblk0 V c 1 t) (V c main_v0) (iblk0 V c 2 t)
    _ p q (fun k => ?_) (fun k => ?_) ?_
  · show V c main_arg0 (((cfg0.win 0).blk t).view.emb (ix2 p k)) = V c main_arg0 (ix2 _ k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  · show V c main_arg1 (((cfg0.win 1).blk t).view.emb (ix2 k q)) = V c main_arg1 (ix2 k q)
    refine congrArg (V c main_arg1) ?_
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  · show V c main_v0 (((cfg0.win 2).blk t).view.emb (ix2 (0 : Fin 1) q)) = V c main_v0 (ix2 (0 : Fin 1) q)
    refine congrArg (V c main_v0) ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega

/-- An index of the result array lies in point `t`'s block iff each coordinate lies in the block's range. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every entry of the result array is written: entry `(r, q)` by point `r / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e30, e31⟩ := index_facts t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region: the layer of the operand arrays as the region finds them. -/
theorem final (c : Dev nD) :
    (dat0 V c).arrAt 3 cfg0.N
      = Layer.affine (M := 100000) (K := 256) (N := 128) (V c main_arg0) (V c main_arg1) (V c main_v0) :=
  (dat0 V c).arrAt_eq_of_cover 3 _ (fun t _ => flushed_eq V c t) covered

end Cert.KernelIdeal.Region0

end
-- ==== Proof.Region1.lean ====
/-
  The second pallas_call (rectifier, then the second dense layer), read as a value: whatever the arrays hold when the
  region is entered, its output array ends holding the layer `max(h, 0) · w + b` of its three operand arrays.

  The grid has 20 points.  Point `t` stages rows `5000·t … 5000·t + 4999` of `h` (all 128 columns), the whole of `w` and
  the whole bias row, and writes back the same rows of the result.  The body takes the larger of each entry of its block
  of `h` and the zero word's value, rounds both operands to bf16 (the identity on extended reals), multiplies them into a
  zero accumulator and adds the bias row broadcast over the rows: entry `(p, q)` of the stored block is
  `Σ_k max(h[5000·t + p, k], 0) · w[k, q] + b[0, q]`, entry `(5000·t + p, q)` of the layer.  The 20 row blocks tile the
  100000 rows, so every entry of the output array is written, by point `row / 5000`.
-/
import proofs.«138256_j19937238188789_1_alg».proof.Proof.Gen.KernelIdeal.Frame
import proofs.«138256_j19937238188789_1_alg».proof.Proof.Layer
import proofs.«138256_j19937238188789_1_alg».proof.Proof.LibMatmulPlain
import Idealize.ShloMosaic.Lib.Pipeline.Value
import Idealize.ShloMosaic.Lib.ValueLayout

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The body's product is a plain `[M, K] × [K, N]` one. -/
theorem plain : MatmulPlain.IsPlain dot_S5000x128_S128x128_S5000x128_1_0_0_1_n_n := ⟨rfl, rfl, rfl, rfl, rfl, rfl⟩

/-- The stored value at `(p, q)`, from the three loaded blocks: the layer's entry of the rectified block. -/
theorem stored_apply (x0 : FVec Ideal S5000x128 .f32) (x1 : FVec Ideal S128x128 .f32) (x2 : FVec Ideal S1x128 .f32)
    (p : Fin 5000) (q : Fin 128) :
    k1_pay1 (F := Ideal) x0 x1 x2 (ix2 p q) = Layer.affineAt (Layer.relu x0) x1 x2 p q := by
  unfold k1_pay1
  show FloatOps.matmul (F := Ideal) dot_S5000x128_S128x128_S5000x128_1_0_0_1_n_n none
        (truncf (F := Ideal) .bf16 (maximumf (F := Ideal) (shapeCast S5000x128 x0 shapeCasts_S5000x128_S5000x128)
          (broadcast S5000x128 (Scalar.ofBits (F := Ideal) .f32 0x00000000#32))) bitsLt_bf16_f32)
        (truncf (F := Ideal) .bf16 x1 bitsLt_bf16_f32) (constant (F := Ideal) S5000x128 .f32 0x00000000#32) (ix2 p q)
      + broadcastTo S5000x128 (shapeCast S1x128 x2 shapeCasts_S1x128_S1x128) broadcasts_S1x128_S5000x128 (ix2 p q) = _
  rw [MatmulPlain.matmul_zero_apply plain, broadcastTo_1b_ab_apply, shapeCast_self, shapeCast_self]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 20 points: the rows of `h` and of the result move with the point, block `t` at point `t`;
    `w` and the bias row stay at block 0; no map moves along the columns. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` (rows `5000·t …`) of the layer of the arrays as the region finds them. -/
theorem flushed_eq (c : Dev nD) (t : Fin cfg1.N) :
    (dat1 V c).flushed 3 t = ((cfg1.win 3).blk t).view.read (Elt Ideal)
      (Layer.affine (M := 100000) (K := 128) (N := 128) (Layer.relu (V c main_v14)) (V c main_arg3) (V c main_v15)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31⟩ := index_facts t
  have ht : t.val < 20 := Nat.lt_of_lt_of_eq t.isLt (show cfg1.N = 20 from N_1)
  funext j
  obtain ⟨p, q, rfl⟩ : ∃ (p : Fin 5000) (q : Fin 128), j = ix2 p q := ⟨j 0, j 1, eq_ix2 j⟩
  have hp : p.val < 5000 := p.isLt
  have hemb : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (F := Ideal) (iblk1 V c 0 t) (iblk1 V c 1 t) (iblk1 V c 2 t) (ix2 p q)
    = Layer.affine (M := 100000) (K := 128) (N := 128) (Layer.relu (V c main_v14)) (V c main_arg3) (V c main_v15)
        (((cfg1.win 3).blk t).view.emb (ix2 p q))
  rw [hemb, Layer.affine_apply]
  refine (stored_apply _ _ _ p q).trans ?_
  refine Layer.affineAt_congr (Layer.relu (V c main_v14)) (Layer.relu (iblk1 V c 0 t)) (V c main_arg3) (iblk1 V c 1 t)
    (V c main_v15) (iblk1 V c 2 t) _ p q (fun k => ?_) (fun k => ?_) ?_
  · show Layer.relu (M := 100000) (N := 128) (V c main_v14) (((cfg1.win 0).blk t).view.emb (ix2 p k))
      = Layer.relu (M := 100000) (N := 128) (V c main_v14) (ix2 _ k)
    refine congrArg (Layer.relu (M := 100000) (N := 128) (V c main_v14)) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_arg3 (((cfg1.win 1).blk t).view.emb (ix2 k q)) = V c main_arg3 (ix2 k q)
    refine congrArg (V c main_arg3) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  · show V c main_v15 (((cfg1.win 2).blk t).view.emb (ix2 (0 : Fin 1) q)) = V c main_v15 (ix2 (0 : Fin 1) q)
    refine congrArg (V c main_v15) ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega

/-- An index of the result array lies in point `t`'s block iff each coordinate lies in the block's range. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v16).slice (win1_3.rect t)).set ↔ _
  rw [View.set_slice_whole, Rect.mem_set_unit]
  exact Iff.rfl

/-- Every entry of the result array is written: entry `(r, q)` by point `r / 5000`. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e30, e31⟩ := index_facts t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The output array after the region: the layer of the operand arrays as the region finds them. -/
theorem final (c : Dev nD) :
    (dat1 V c).arrAt 3 cfg1.N
      = Layer.affine (M := 100000) (K := 128) (N := 128) (Layer.relu (V c main_v14)) (V c main_arg3) (V c main_v15) :=
  (dat1 V c).arrAt_eq_of_cover 3 _ (fun t _ => flushed_eq V c t) covered

end Cert.KernelIdeal.Region1

end
-- ==== Proof.KernelValue.lean ====
/-
  The idealized kernel's result as a function of its arguments.

  The buffer contents at the boundaries of @main's five segments are read one after the other, from the launch memory:
  * after the first reshape, the first layer's bias buffer holds `b₁` laid out as a row; the arguments are untouched;
  * the first pallas_call leaves in its output array the first layer `x · w₁ + b₁` of the arrays it was entered with;
  * the host's operations between the two calls aggregate that array along the edges and lay `b₂` out as a row;
  * the second pallas_call leaves in its output array the second layer of the aggregated activations, rectified;
  * the host's last operations aggregate that array along the edges: the result.
  No segment writes an argument, so wherever a later stage reads `w₂`, `b₂`, the edge weights or the edge endpoints it
  reads the launch contents.
-/
import proofs.«138256_j19937238188789_1_alg».proof.Proof.Gen.KernelIdeal.Frame
import proofs.«138256_j19937238188789_1_alg».proof.Proof.Layer
import proofs.«138256_j19937238188789_1_alg».proof.Proof.Aggregate
import proofs.«138256_j19937238188789_1_alg».proof.Proof.Region0
import proofs.«138256_j19937238188789_1_alg».proof.Proof.Region1
import Idealize.ShloMosaic.Lib.StableHlo.Run
import Idealize.ShloMosaic.Lib.ValueLayout

noncomputable section

namespace Cert.KernelIdeal.Stages

open Cert.KernelIdeal Cert.KernelIdeal.Gen
open Idealize.ShloMosaic Idealize.ShloMosaic.TcCoe Idealize.ShloMosaic.ValueIdx Idealize.SL.Sem
open Idealize.ShloMosaic.StableHlo
open Cert.KernelIdeal.Aggregate (aggregate)

/-- A vector reshaped to one row is the vector laid out as a row. -/
theorem shapeCast_row {N : Nat} (b : (⟨1, ![N]⟩ : Shape).Idx → EReal) (h : (⟨1, ![N]⟩ : Shape).ShapeCasts ⟨2, ![1, N]⟩) :
    shapeCast ⟨2, ![1, N]⟩ b h = Layer.biasRow b := by
  funext i
  obtain ⟨u, q, rfl⟩ : ∃ (u : Fin 1) (q : Fin N), i = ix2 u q := ⟨i 0, i 1, eq_ix2 i⟩
  exact shapeCast_a_1a_apply b h u q

variable (m : (ℓ : Loc nD τ sig) → Buf (Elt Ideal) ℓ) (ρ : Dev nD → PrngReg)

/-! ## After the first reshape: the first call's entry contents -/

theorem at1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem at1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem at1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem at1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem at1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem at1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem at1_arg7 (c : Dev nD) : W1 m ρ c (Proc.devRef .tc main_arg7) = m ((c : Thread nD τ).loc main_arg7) := by
  show StableHlo.after hostOps0 (W0 m ρ c) (Proc.devRef .tc main_arg7) = _
  after_results <;> rfl

/-- The first layer's bias buffer holds `b₁` as a row. -/
theorem at1_bias (c : Dev nD) :
    W1 m ρ c (Proc.devRef .tc main_v0) = Layer.biasRow (N := 128) (m ((c : Thread nD τ).loc main_arg2)) := by
  show StableHlo.after hostOps0 (W0 m ρ c) (Proc.devRef .tc main_v0) = _
  after_results
  exact shapeCast_row (N := 128) (m ((c : Thread nD τ).loc main_arg2)) _

/-! ## After the first call -/

/-- The first call's output array: the first layer of the arguments. -/
theorem at2_layer (c : Dev nD) : W2 m ρ c (Proc.devRef .tc main_v1)
    = Layer.affine (M := 100000) (K := 256) (N := 128) (m ((c : Thread nD τ).loc main_arg0))
        (m ((c : Thread nD τ).loc main_arg1)) (Layer.biasRow (N := 128) (m ((c : Thread nD τ).loc main_arg2))) := by
  refine (W2_arr m ρ c 3).trans ((Region0.final (V1 m ρ) c).trans ?_)
  show Layer.affine (M := 100000) (K := 256) (N := 128) (W1 m ρ c (Proc.devRef .tc main_arg0))
      (W1 m ρ c (Proc.devRef .tc main_arg1)) (W1 m ρ c (Proc.devRef .tc main_v0)) = _
  rw [at1_arg0, at1_arg1, at1_bias]

theorem at2_arg3 (c : Dev nD) : W2 m ρ c (Proc.devRef .tc main_arg3) = m ((c : Thread nD τ).loc main_arg3) :=
  (W2_of_ne m ρ c main_arg3 (by decide)).trans (at1_arg3 m ρ c)
theorem at2_arg4 (c : Dev nD) : W2 m ρ c (Proc.devRef .tc main_arg4) = m ((c : Thread nD τ).loc main_arg4) :=
  (W2_of_ne m ρ c main_arg4 (by decide)).trans (at1_arg4 m ρ c)
theorem at2_arg5 (c : Dev nD) : W2 m ρ c (Proc.devRef .tc main_arg5) = m ((c : Thread nD τ).loc main_arg5) :=
  (W2_of_ne m ρ c main_arg5 (by decide)).trans (at1_arg5 m ρ c)
theorem at2_arg6 (c : Dev nD) : W2 m ρ c (Proc.devRef .tc main_arg6) = m ((c : Thread nD τ).loc main_arg6) :=
  (W2_of_ne m ρ c main_arg6 (by decide)).trans (at1_arg6 m ρ c)
theorem at2_arg7 (c : Dev nD) : W2 m ρ c (Proc.devRef .tc main_arg7) = m ((c : Thread nD τ).loc main_arg7) :=
  (W2_of_ne m ρ c main_arg7 (by decide)).trans (at1_arg7 m ρ c)

/-! ## After the host's operations between the calls: the second call's entry contents -/

/-- The second call's first operand: the first layer's result aggregated along the edges. -/
theorem at3_aggregated (c : Dev nD) : W3 m ρ c (Proc.devRef .tc main_v14)
    = aggregate (W2 m ρ c (Proc.devRef .tc main_v1)) (W2 m ρ c (Proc.devRef .tc main_arg5))
        (W2 m ρ c (Proc.devRef .tc main_arg6)) (W2 m ρ c (Proc.devRef .tc main_arg7)) := by
  show StableHlo.after hostOps1 (W2 m ρ c) (Proc.devRef .tc main_v14) = _
  generalize W2 m ρ c = Wv
  after_results <;> rfl

/-- The second layer's bias buffer holds `b₂` as a row. -/
theorem at3_bias (c : Dev nD) : W3 m ρ c (Proc.devRef .tc main_v15)
    = Layer.biasRow (N := 128) (m ((c : Thread nD τ).loc main_arg4)) := by
  refine Eq.trans ?_ (congrArg (Layer.biasRow (N := 128)) (at2_arg4 m ρ c))
  show StableHlo.after hostOps1 (W2 m ρ c) (Proc.devRef .tc main_v15) = _
  generalize W2 m ρ c = Wv
  after_results
  exact shapeCast_row (N := 128) (Wv (Proc.devRef .tc main_arg4)) _

theorem at3_arg3 (c : Dev nD) : W3 m ρ c (Proc.devRef .tc main_arg3) = m ((c : Thread nD τ).loc main_arg3) := by
  refine Eq.trans ?_ (at2_arg3 m ρ c)
  show StableHlo.after hostOps1 (W2 m ρ c) (Proc.devRef .tc main_arg3) = W2 m ρ c (Proc.devRef .tc main_arg3)
  generalize W2 m ρ c = Wv
  after_results <;> rfl
theorem at3_arg5 (c : Dev nD) : W3 m ρ c (Proc.devRef .tc main_arg5) = m ((c : Thread nD τ).loc main_arg5) := by
  refine Eq.trans ?_ (at2_arg5 m ρ c)
  show StableHlo.after hostOps1 (W2 m ρ c) (Proc.devRef .tc main_arg5) = W2 m ρ c (Proc.devRef .tc main_arg5)
  generalize W2 m ρ c = Wv
  after_results <;> rfl
theorem at3_arg6 (c : Dev nD) : W3 m ρ c (Proc.devRef .tc main_arg6) = m ((c : Thread nD τ).loc main_arg6) := by
  refine Eq.trans ?_ (at2_arg6 m ρ c)
  show StableHlo.after hostOps1 (W2 m ρ c) (Proc.devRef .tc main_arg6) = W2 m ρ c (Proc.devRef .tc main_arg6)
  generalize W2 m ρ c = Wv
  after_results <;> rfl
theorem at3_arg7 (c : Dev nD) : W3 m ρ c (Proc.devRef .tc main_arg7) = m ((c : Thread nD τ).loc main_arg7) := by
  refine Eq.trans ?_ (at2_arg7 m ρ c)
  show StableHlo.after hostOps1 (W2 m ρ c) (Proc.devRef .tc main_arg7) = W2 m ρ c (Proc.devRef .tc main_arg7)
  generalize W2 m ρ c = Wv
  after_results <;> rfl

/-! ## After the second call -/

/-- The second call's output array: the second layer of its entry contents. -/
theorem at4_layer (c : Dev nD) : W4 m ρ c (Proc.devRef .tc main_v16)
    = Layer.affine (M := 100000) (K := 128) (N := 128) (Layer.relu (W3 m ρ c (Proc.devRef .tc main_v14)))
        (W3 m ρ c (Proc.devRef .tc main_arg3)) (W3 m ρ c (Proc.devRef .tc main_v15)) :=
  (W4_arr m ρ c 3).trans (Region1.final (V3 m ρ) c)

theorem at4_arg5 (c : Dev nD) : W4 m ρ c (Proc.devRef .tc main_arg5) = m ((c : Thread nD τ).loc main_arg5) :=
  (W4_of_ne m ρ c main_arg5 (by decide)).trans (at3_arg5 m ρ c)
theorem at4_arg6 (c : Dev nD) : W4 m ρ c (Proc.devRef .tc main_arg6) = m ((c : Thread nD τ).loc main_arg6) :=
  (W4_of_ne m ρ c main_arg6 (by decide)).trans (at3_arg6 m ρ c)
theorem at4_arg7 (c : Dev nD) : W4 m ρ c (Proc.devRef .tc main_arg7) = m ((c : Thread nD τ).loc main_arg7) :=
  (W4_of_ne m ρ c main_arg7 (by decide)).trans (at3_arg7 m ρ c)

/-! ## After the host's last operations: the result -/

/-- The result buffer: the second call's output aggregated along the edges. -/
theorem at5_aggregated (c : Dev nD) : W5 m ρ c (Proc.devRef .tc main_v29)
    = aggregate (W4 m ρ c (Proc.devRef .tc main_v16)) (W4 m ρ c (Proc.devRef .tc main_arg5))
        (W4 m ρ c (Proc.devRef .tc main_arg6)) (W4 m ρ c (Proc.devRef .tc main_arg7)) := by
  show StableHlo.after hostOps2 (W4 m ρ c) (Proc.devRef .tc main_v29) = _
  generalize W4 m ρ c = Wv
  after_results <;> rfl

/-- The kernel's result: aggregate, second layer, rectifier, aggregate, first layer, of the launch contents. -/
theorem result (c : Dev nD) : W5 m ρ c (Proc.devRef .tc main_v29)
    = aggregate (Layer.affine (M := 100000) (K := 128) (N := 128)
        (Layer.relu (aggregate (Layer.affine (M := 100000) (K := 256) (N := 128) (m ((c : Thread nD τ).loc main_arg0))
            (m ((c : Thread nD τ).loc main_arg1)) (Layer.biasRow (N := 128) (m ((c : Thread nD τ).loc main_arg2))))
          (m ((c : Thread nD τ).loc main_arg5)) (m ((c : Thread nD τ).loc main_arg6)) (m ((c : Thread nD τ).loc main_arg7))))
        (m ((c : Thread nD τ).loc main_arg3)) (Layer.biasRow (N := 128) (m ((c : Thread nD τ).loc main_arg4))))
      (m ((c : Thread nD τ).loc main_arg5)) (m ((c : Thread nD τ).loc main_arg6)) (m ((c : Thread nD τ).loc main_arg7)) := by
  rw [at5_aggregated, at4_layer, at4_arg5, at4_arg6, at4_arg7, at3_aggregated, at3_arg3, at3_bias, at2_layer, at2_arg5,
    at2_arg6, at2_arg7]

end Cert.KernelIdeal.Stages

end
-- ==== Proof.RefValue.lean ====
/-
  The reference, stage by stage, in the vocabulary shared with the kernel.

  Its result is aggregate ∘ (second layer) ∘ rectifier ∘ aggregate ∘ (first layer) of the arguments:
  * the first layer, `x · w₁` by the host's dot product plus `b₁` broadcast along the rows, is `Layer.affine` of `x`,
    `w₁` and the bias laid out as a row — entry `(p, q)` is `Σ_k x[p, k] · w₁[k, q] + b₁[q]`;
  * each aggregation is the host's gather, multiply and scatter-add, the same operations with the same dimension
    numbers as the shared function `aggregate`;
  * the second layer is the dot product of `max(·, 0)` of the aggregated activations with `w₂`, plus `b₂` broadcast:
    `Layer.affine` of the rectified activations.
-/
import proofs.«138256_j19937238188789_1_alg».proof.Proof.Gen.ReferenceIdeal.Read
import proofs.«138256_j19937238188789_1_alg».proof.Proof.Layer
import proofs.«138256_j19937238188789_1_alg».proof.Proof.Aggregate

noncomputable section

namespace Cert.ReferenceIdeal.Stages

open Cert.ReferenceIdeal Cert.ReferenceIdeal.Read
open Idealize.ShloMosaic Idealize.ShloMosaic.ValueIdx
open Cert.KernelIdeal.Aggregate (aggregate)

variable (x0 : (⟨S100000x256, .f32⟩ : BufTy).Contents (Elt Ideal)) (x1 : (⟨S256x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S1600000, .f32⟩ : BufTy).Contents (Elt Ideal))
  (x6 x7 : (⟨S1600000, .i32⟩ : BufTy).Contents (Elt Ideal))

/-- The first layer: the dot product plus the broadcast bias is `Σ_k x[p, k] · w₁[k, q] + b₁[q]`. -/
theorem layer1 : val_main_v3 (F := Ideal) x0 x1 x2
    = Layer.affine (M := 100000) (K := 256) (N := 128) x0 x1 (Layer.biasRow x2) := by
  funext i
  obtain ⟨p, q, rfl⟩ : ∃ (p : Fin 100000) (q : Fin 128), i = ix2 p q := ⟨i 0, i 1, eq_ix2 i⟩
  rw [val_main_v3_apply, val_main_v0_apply, val_main_v2_apply, val_main_v1_apply, Layer.affine_apply]
  have el : ∀ k : Fin 256, lidx_main_v0 (ix2 p q) k = ix2 p k := fun k => funext fun a => Fin.ext (by
    match a with
    | ⟨0, _⟩ => rfl
    | ⟨1, _⟩ => rfl)
  have er : ∀ k : Fin 256, ridx_main_v0 (ix2 p q) k = ix2 k q := fun k => funext fun a => Fin.ext (by
    match a with
    | ⟨0, _⟩ => rfl
    | ⟨1, _⟩ => rfl)
  have eb : idx_main_v1 (idx_main_v2 (ix2 p q)) = ix1 q := funext fun a => Fin.ext (by
    match a with
    | ⟨0, _⟩ => rfl)
  simp only [el, er, eb]
  rfl

/-- The first aggregation is the shared function of the first layer's result. -/
theorem aggregate1 : val_main_v16 (F := Ideal) x0 x1 x2 x5 x6 x7
    = aggregate (val_main_v3 (F := Ideal) x0 x1 x2) x5 x6 x7 := rfl

/-- The rectifier stage: the larger of each aggregated entry and the zero word's value. -/
theorem rectified : val_main_v17 (F := Ideal) x0 x1 x2 x5 x6 x7
    = Layer.relu (M := 100000) (N := 128) (val_main_v16 (F := Ideal) x0 x1 x2 x5 x6 x7) := by
  funext j
  rw [val_main_v17_apply, val_main_call0_v0_apply, val_main_call0_cst_apply, Layer.relu_apply]
  generalize val_main_v16 (F := Ideal) x0 x1 x2 x5 x6 x7 j = z
  rw [Ideal.maximumf_def, Ideal.ofBits_def]

/-- The second layer: the dot product of the rectified activations plus the broadcast bias. -/
theorem layer2 : val_main_v21 (F := Ideal) x0 x1 x2 x3 x4 x5 x6 x7
    = Layer.affine (M := 100000) (K := 128) (N := 128)
        (Layer.relu (val_main_v16 (F := Ideal) x0 x1 x2 x5 x6 x7)) x3 (Layer.biasRow x4) := by
  funext i
  obtain ⟨p, q, rfl⟩ : ∃ (p : Fin 100000) (q : Fin 128), i = ix2 p q := ⟨i 0, i 1, eq_ix2 i⟩
  rw [val_main_v21_apply, val_main_v18_apply, val_main_v20_apply, val_main_v19_apply, Layer.affine_apply, rectified]
  generalize val_main_v16 (F := Ideal) x0 x1 x2 x5 x6 x7 = H
  have el : ∀ k : Fin 128, lidx_main_v18 (ix2 p q) k = ix2 p k := fun k => funext fun a => Fin.ext (by
    match a with
    | ⟨0, _⟩ => rfl
    | ⟨1, _⟩ => rfl)
  have er : ∀ k : Fin 128, ridx_main_v18 (ix2 p q) k = ix2 k q := fun k => funext fun a => Fin.ext (by
    match a with
    | ⟨0, _⟩ => rfl
    | ⟨1, _⟩ => rfl)
  have eb : idx_main_v19 (idx_main_v20 (ix2 p q)) = ix1 q := funext fun a => Fin.ext (by
    match a with
    | ⟨0, _⟩ => rfl)
  simp only [el, er, eb]
  rfl

/-- The second aggregation is the shared function of the second layer's result. -/
theorem aggregate2 : val_main_v34 (F := Ideal) x0 x1 x2 x3 x4 x5 x6 x7
    = aggregate (val_main_v21 (F := Ideal) x0 x1 x2 x3 x4 x5 x6 x7) x5 x6 x7 := rfl

/-- The reference's result: aggregate, second layer, rectifier, aggregate, first layer. -/
theorem result : val_main_v34 (F := Ideal) x0 x1 x2 x3 x4 x5 x6 x7
    = aggregate (Layer.affine (M := 100000) (K := 128) (N := 128)
        (Layer.relu (aggregate (Layer.affine (M := 100000) (K := 256) (N := 128) x0 x1 (Layer.biasRow x2)) x5 x6 x7))
        x3 (Layer.biasRow x4)) x5 x6 x7 := by
  rw [aggregate2, layer2, aggregate1, layer1]

end Cert.ReferenceIdeal.Stages

end
-- ==== Proof.lean ====
/-
  A two-layer graph convolution, kernel against reference, over the extended reals.

  Both programs compute
      out = A · (max(A · (X · W₁ + b₁), 0) · W₂ + b₂),
  where `A` is the sparse matrix given by the edge list: `(A · H)[i] = Σ_{e : row[e] = i} vals[e] · H[col[e]]`.
  The kernel runs each dense layer as a pallas_call over 20 blocks of 5000 rows (the second one rectifying its input
  block first) and leaves the two aggregations to the host; the reference does everything on the host and rectifies
  after the first aggregation.

  Nothing is re-associated between the two: each dense layer's entry `(p, q)` is the same sum `Σ_k x[p, k] · w[k, q]`
  plus the same bias entry on both sides — the kernel's product into a zero accumulator is that sum, its roundings to
  bf16 are the identity on extended reals, and its row blocks tile the rows —, the rectifier is the same `max` with
  the zero word's value, and the aggregation is the same composition of host operations, applied to equal arrays.
  So no algebraic law and no finiteness of the inputs is needed; the precondition is never opened.

  The three frames: the kernel's two are the generated frames; the reference has no kernel, and its frame is its run
  with the result forgotten.  The idealization rewrote nothing, so `preserves` is trivial.
-/
import proofs.«138256_j19937238188789_1_alg».proof.Defs
import proofs.«138256_j19937238188789_1_alg».proof.Proof.Gen.Kernel
import proofs.«138256_j19937238188789_1_alg».proof.Proof.Gen.Kernel.Frame
import proofs.«138256_j19937238188789_1_alg».proof.Proof.Gen.KernelIdeal
import proofs.«138256_j19937238188789_1_alg».proof.Proof.Gen.KernelIdeal.Frame
import proofs.«138256_j19937238188789_1_alg».proof.Proof.Gen.ReferenceIdeal
import proofs.«138256_j19937238188789_1_alg».proof.Proof.Gen.Pre_finite_inputs
import proofs.«138256_j19937238188789_1_alg».proof.Proof.Gen.ReferenceIdeal.Run
import proofs.«138256_j19937238188789_1_alg».proof.Proof.Gen.ReferenceIdeal.Read
import proofs.«138256_j19937238188789_1_alg».proof.Proof.KernelRun
import proofs.«138256_j19937238188789_1_alg».proof.Proof.KernelValue
import proofs.«138256_j19937238188789_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run ends with its result at the network's function of the launch contents (the run with the result
    named, then the boundaries read back), the reference's with its result at the same function of its own launch
    contents (its run, then its stages); the two memories agree on the arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Stages.result m ρ c), (h c).2⟩)
      (Cert.KernelIdeal.Named.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v34_eq, Cert.ReferenceIdeal.Stages.result, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
